-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S64 : Shape := ⟨1, ![64]⟩
abbrev S64x64 : Shape := ⟨2, ![64, 64]⟩
abbrev S3x64 : Shape := ⟨2, ![3, 64]⟩
abbrev S64x128 : Shape := ⟨2, ![64, 128]⟩
abbrev S128 : Shape := ⟨1, ![128]⟩
abbrev S192x64 : Shape := ⟨2, ![192, 64]⟩
abbrev S64x10 : Shape := ⟨2, ![64, 10]⟩
abbrev S10 : Shape := ⟨1, ![10]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S192x64 : S_.BroadcastsInDim S192x64 (![] : Fin 0 → Fin S192x64.rank)
  reducesTo_S192x64_S_d0_1 : S192x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S64 .f32) (main_arg11 : FVec F S64x10 .f32) (main_arg12 : FVec F S10 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x10 .f32 := Host.absf main_arg11
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg12
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg7 : FVec F S64x128 .f32) (main_arg8 : FVec F S128 .f32) (main_arg9 : FVec F S192x64 .f32) (main_arg10 : FVec F S64 .f32) (main_arg11 : FVec F S64x10 .f32) (main_arg12 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg7
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x64 .f32 := Host.absf main_arg9
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x3 .f32) (main_arg1 : IVec S2x1600000 32) (main_arg2 : IVec S100000 32) (main_arg3 : IVec S64 32) (main_arg4 : FVec F S64x64 .f32) (main_arg5 : FVec F S3x64 .f32) (main_arg6 : FVec F S64 .f32) (main_arg7 : FVec F S64x128 .f32) (main_arg8 : FVec F S128 .f32) (main_arg9 : FVec F S192x64 .f32) (main_arg10 : FVec F S64 .f32) (main_arg11 : FVec F S64x10 .f32) (main_arg12 : FVec F S10 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S64 : Shape := ⟨1, ![64]⟩
abbrev S64x64 : Shape := ⟨2, ![64, 64]⟩
abbrev S3x64 : Shape := ⟨2, ![3, 64]⟩
abbrev S64x128 : Shape := ⟨2, ![64, 128]⟩
abbrev S128 : Shape := ⟨1, ![128]⟩
abbrev S192x64 : Shape := ⟨2, ![192, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S64x1 : Shape := ⟨2, ![64, 1]⟩
abbrev S64x192 : Shape := ⟨2, ![64, 192]⟩
abbrev S1x10 : Shape := ⟨2, ![1, 10]⟩

abbrev nBuf : Space → Nat
  | .hbm => 199
  | .vmem => 7
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S64, .i32⟩
  | 4 => ⟨S64x64, .f32⟩
  | 5 => ⟨S3x64, .f32⟩
  | 6 => ⟨S64, .f32⟩
  | 7 => ⟨S64x128, .f32⟩
  | 8 => ⟨S128, .f32⟩
  | 9 => ⟨S192x64, .f32⟩
  | 10 => ⟨S64, .f32⟩
  | 11 => ⟨S64x10, .f32⟩
  | 12 => ⟨S10, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S100000x64, .f32⟩
  | 21 => ⟨S_, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S_, .f32⟩
  | 32 => ⟨S1700000, .f32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000, .i32⟩
  | 94 => ⟨S1x1600000, .i32⟩
  | 95 => ⟨S1600000, .i32⟩
  | 96 => ⟨S1700000, .i32⟩
  | 97 => ⟨S1x1600000, .i32⟩
  | 98 => ⟨S1600000, .i32⟩
  | 99 => ⟨S1700000, .i32⟩
  | 100 => ⟨S100000x128, .f32⟩
  | 101 => ⟨S_, .f32⟩
  | 102 => ⟨S100000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S_, .f32⟩
  | 112 => ⟨S1700000, .f32⟩
  | 113 => ⟨S100000, .f32⟩
  | 114 => ⟨S_, .f32⟩
  | 115 => ⟨S100000, .f32⟩
  | 116 => ⟨S100000, .i1⟩
  | 117 => ⟨S100000, .f32⟩
  | 118 => ⟨S_, .f32⟩
  | 119 => ⟨S100000, .f32⟩
  | 120 => ⟨S100000, .f32⟩
  | 121 => ⟨S_, .f32⟩
  | 122 => ⟨S_, .f32⟩
  | 123 => ⟨S100000, .f32⟩
  | 124 => ⟨S100000, .f32⟩
  | 125 => ⟨S_, .i32⟩
  | 126 => ⟨S1700000, .i32⟩
  | 127 => ⟨S1700000, .i1⟩
  | _ => ⟨S100000x3, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000, .f32⟩
  | 15 => ⟨S1700000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x128, .f32⟩
  | 25 => ⟨S1700000x1, .f32⟩
  | 26 => ⟨S1700000x128, .f32⟩
  | 27 => ⟨S1700000x128, .f32⟩
  | 28 => ⟨S_, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S64x128, .f32⟩
  | 47 => ⟨S100000x1, .i32⟩
  | 48 => ⟨S64x128, .f32⟩
  | 49 => ⟨S_, .f32⟩
  | 50 => ⟨S100000, .f32⟩
  | 51 => ⟨S_, .f32⟩
  | 52 => ⟨S64, .f32⟩
  | 53 => ⟨S100000x1, .i32⟩
  | 54 => ⟨S64, .f32⟩
  | 55 => ⟨S_, .f32⟩
  | 56 => ⟨S64, .f32⟩
  | 57 => ⟨S64, .f32⟩
  | 58 => ⟨S64x1, .f32⟩
  | 59 => ⟨S64x128, .f32⟩
  | 60 => ⟨S64x128, .f32⟩
  | 61 => ⟨S_, .i32⟩
  | 62 => ⟨S64, .i32⟩
  | 63 => ⟨S64, .i1⟩
  | 64 => ⟨S_, .i32⟩
  | 65 => ⟨S64, .i32⟩
  | 66 => ⟨S64, .i32⟩
  | 67 => ⟨S64, .i32⟩
  | 68 => ⟨S64x1, .i32⟩
  | 69 => ⟨S64x64, .f32⟩
  | 70 => ⟨S64x10, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S64x128, .f32⟩
  | .local _ .vmem, ⟨1, _⟩ => ⟨S64x64, .f32⟩
  | .local _ .vmem, ⟨2, _⟩ => ⟨S192x64, .f32⟩
  | .local _ .vmem, ⟨3, _⟩ => ⟨S64, .f32⟩
  | .local _ .vmem, ⟨4, _⟩ => ⟨S64x10, .f32⟩
  | .local _ .vmem, ⟨5, _⟩ => ⟨S10, .f32⟩
  | .local _ .vmem, ⟨6, _⟩ => ⟨S64x10, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call1_cst : Ref sig .tc := ⟨.hbm, 90, rfl⟩
abbrev main_call1_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_c_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_cst_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_19 : Ref sig .tc := ⟨.hbm, 118, rfl⟩
abbrev main_v80 : Ref sig .tc := ⟨.hbm, 119, rfl⟩
abbrev main_v81 : Ref sig .tc := ⟨.hbm, 120, rfl⟩
abbrev main_cst_20 : Ref sig .tc := ⟨.hbm, 121, rfl⟩
abbrev main_call2_v0 : Ref sig .tc := ⟨.hbm, 122, rfl⟩
abbrev main_call2_v1 : Ref sig .tc := ⟨.hbm, 123, rfl⟩
abbrev main_v82 : Ref sig .tc := ⟨.hbm, 124, rfl⟩
abbrev main_c_21 : Ref sig .tc := ⟨.hbm, 125, rfl⟩
abbrev main_v83 : Ref sig .tc := ⟨.hbm, 126, rfl⟩
abbrev main_v84 : Ref sig .tc := ⟨.hbm, 127, rfl⟩
abbrev main_c_22 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_23 : Ref sig .tc := ⟨.hbm, 134, rfl⟩
abbrev main_v90 : Ref sig .tc := ⟨.hbm, 135, rfl⟩
abbrev main_v91 : Ref sig .tc := ⟨.hbm, 136, rfl⟩
abbrev main_c_24 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_25 : Ref sig .tc := ⟨.hbm, 144, rfl⟩
abbrev main_v98 : Ref sig .tc := ⟨.hbm, 145, rfl⟩
abbrev main_v99 : Ref sig .tc := ⟨.hbm, 146, rfl⟩
abbrev main_c_26 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_27 : Ref sig .tc := ⟨.hbm, 156, rfl⟩
abbrev main_v108 : Ref sig .tc := ⟨.hbm, 157, rfl⟩
abbrev main_c_28 : Ref sig .tc := ⟨.hbm, 158, rfl⟩
abbrev main_v109 : Ref sig .tc := ⟨.hbm, 159, rfl⟩
abbrev main_v110 : Ref sig .tc := ⟨.hbm, 160, rfl⟩
abbrev main_c_29 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call3_cst : Ref sig .tc := ⟨.hbm, 170, rfl⟩
abbrev main_call3_v0 : Ref sig .tc := ⟨.hbm, 171, rfl⟩
abbrev main_v119 : Ref sig .tc := ⟨.hbm, 172, rfl⟩
abbrev main_cst_30 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_31 : Ref sig .tc := ⟨.hbm, 177, rfl⟩
abbrev main_v123 : Ref sig .tc := ⟨.hbm, 178, rfl⟩
abbrev main_cst_32 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_33 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_c_34 : Ref sig .tc := ⟨.hbm, 189, rfl⟩
abbrev main_v132 : Ref sig .tc := ⟨.hbm, 190, rfl⟩
abbrev main_v133 : Ref sig .tc := ⟨.hbm, 191, rfl⟩
abbrev main_c_35 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S64x128_S64x64_S64x192_d1 : Shape.Concatenates [S64x128, S64x64] S64x192 1
  inb_S192x64_S192x64_0_0 : ∀ a, (![0, 0] : Fin 2 → Nat) a + S192x64.size a ≤ S192x64.size a
  h_S192x64 : 0 < S192x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  dot_S100000x3_S3x64_S100000x64_1_0_0_1_n_n_wf : DotDims.WF S100000x3 S3x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  gather_S64x64_S64x1_S64x64_1_0_n_n_0_1_164_wf : GatherDims.WF S64x64 S64x1 S64x64 [1] [0] [] [0] [] 1 ![1, 64]
  dot_S64x192_S192x64_S64x64_1_0_0_1_n_n_wf : DotDims.WF S64x192 S192x64 S64x64 [1] [0] [0] [1] [] []
  dot_S64x64_S64x10_S64x10_1_0_0_1_n_n_wf : DotDims.WF S64x64 S64x10 S64x10 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S64x64_S64x1_S64x64_1_0_n_n_0_1_164 : GatherDims S64x64 S64x1 S64x64 where
  offsetDims := [1]
  collapsedSliceDims := [0]
  operandBatchingDims := []
  startIndicesBatchingDims := []
  startIndexMap := [0]
  indexVectorDim := 1
  sliceSizes := ![1, 64]
  wf := gather_S64x64_S64x1_S64x64_1_0_n_n_0_1_164_wf
def dot_S64x192_S192x64_S64x64_1_0_0_1_n_n : DotDims S64x192 S192x64 S64x64 where
  lhsContracting := [1]
  rhsContracting := [0]
  lhsNonContracting := [0]
  rhsNonContracting := [1]
  lhsBatch := []
  rhsBatch := []
  wf := dot_S64x192_S192x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.whole (Memref.whole main_v131) false false (stage0_0 0) (sem0_0 0) (Memref.isWhole_whole _) (hstage0_0 0)

abbrev win0_1 : Pipeline.Window sig grid0 :=
  Pipeline.Window.whole (Memref.whole main_v138) false false (stage0_1 0) (sem0_1 0) (Memref.isWhole_whole _) (hstage0_1 0)

abbrev win0_2 : Pipeline.Window sig grid0 :=
  Pipeline.Window.whole (Memref.whole main_arg9) false false (stage0_2 0) (sem0_2 0) (Memref.isWhole_whole _) (hstage0_2 0)

abbrev win0_3 : Pipeline.Window sig grid0 :=
  Pipeline.Window.whole (Memref.whole main_arg10) false false (stage0_3 0) (sem0_3 0) (Memref.isWhole_whole _) (hstage0_3 0)

abbrev win0_4 : Pipeline.Window sig grid0 :=
  Pipeline.Window.whole (Memref.whole main_arg11) false false (stage0_4 0) (sem0_4 0) (Memref.isWhole_whole _) (hstage0_4 0)

abbrev win0_5 : Pipeline.Window sig grid0 :=
  Pipeline.Window.whole (Memref.whole main_arg12) false false (stage0_5 0) (sem0_5 0) (Memref.isWhole_whole _) (hstage0_5 0)

abbrev win0_6 : Pipeline.Window sig grid0 :=
  Pipeline.Window.whole (Memref.whole main_v139) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S64 : Shape := ⟨1, ![64]⟩
abbrev S64x64 : Shape := ⟨2, ![64, 64]⟩
abbrev S3x64 : Shape := ⟨2, ![3, 64]⟩
abbrev S64x128 : Shape := ⟨2, ![64, 128]⟩
abbrev S128 : Shape := ⟨1, ![128]⟩
abbrev S192x64 : Shape := ⟨2, ![192, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S64x1 : Shape := ⟨2, ![64, 1]⟩
abbrev S64x192 : Shape := ⟨2, ![64, 192]⟩
abbrev S1x10 : Shape := ⟨2, ![1, 10]⟩

abbrev nBuf : Space → Nat
  | .hbm => 210
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S64, .i32⟩
  | 4 => ⟨S64x64, .f32⟩
  | 5 => ⟨S3x64, .f32⟩
  | 6 => ⟨S64, .f32⟩
  | 7 => ⟨S64x128, .f32⟩
  | 8 => ⟨S128, .f32⟩
  | 9 => ⟨S192x64, .f32⟩
  | 10 => ⟨S64, .f32⟩
  | 11 => ⟨S64x10, .f32⟩
  | 12 => ⟨S10, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S100000x64, .f32⟩
  | 21 => ⟨S_, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S_, .f32⟩
  | 32 => ⟨S1700000, .f32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000, .i32⟩
  | 94 => ⟨S1x1600000, .i32⟩
  | 95 => ⟨S1600000, .i32⟩
  | 96 => ⟨S1700000, .i32⟩
  | 97 => ⟨S1x1600000, .i32⟩
  | 98 => ⟨S1600000, .i32⟩
  | 99 => ⟨S1700000, .i32⟩
  | 100 => ⟨S100000x128, .f32⟩
  | 101 => ⟨S_, .f32⟩
  | 102 => ⟨S100000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S_, .f32⟩
  | 112 => ⟨S1700000, .f32⟩
  | 113 => ⟨S100000, .f32⟩
  | 114 => ⟨S_, .f32⟩
  | 115 => ⟨S100000, .f32⟩
  | 116 => ⟨S100000, .i1⟩
  | 117 => ⟨S100000, .f32⟩
  | 118 => ⟨S_, .f32⟩
  | 119 => ⟨S100000, .f32⟩
  | 120 => ⟨S100000, .f32⟩
  | 121 => ⟨S_, .f32⟩
  | 122 => ⟨S_, .f32⟩
  | 123 => ⟨S100000, .f32⟩
  | 124 => ⟨S100000, .f32⟩
  | 125 => ⟨S_, .i32⟩
  | 126 => ⟨S1700000, .i32⟩
  | 127 => ⟨S1700000, .i1⟩
  | _ => ⟨S100000x3, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000, .f32⟩
  | 15 => ⟨S1700000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x128, .f32⟩
  | 25 => ⟨S1700000x1, .f32⟩
  | 26 => ⟨S1700000x128, .f32⟩
  | 27 => ⟨S1700000x128, .f32⟩
  | 28 => ⟨S_, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S64x128, .f32⟩
  | 47 => ⟨S100000x1, .i32⟩
  | 48 => ⟨S64x128, .f32⟩
  | 49 => ⟨S_, .f32⟩
  | 50 => ⟨S100000, .f32⟩
  | 51 => ⟨S_, .f32⟩
  | 52 => ⟨S64, .f32⟩
  | 53 => ⟨S100000x1, .i32⟩
  | 54 => ⟨S64, .f32⟩
  | 55 => ⟨S_, .f32⟩
  | 56 => ⟨S64, .f32⟩
  | 57 => ⟨S64, .f32⟩
  | 58 => ⟨S64x1, .f32⟩
  | 59 => ⟨S64x128, .f32⟩
  | 60 => ⟨S64x128, .f32⟩
  | 61 => ⟨S_, .i32⟩
  | 62 => ⟨S64, .i32⟩
  | 63 => ⟨S64, .i1⟩
  | 64 => ⟨S_, .i32⟩
  | 65 => ⟨S64, .i32⟩
  | 66 => ⟨S64, .i32⟩
  | 67 => ⟨S64, .i32⟩
  | 68 => ⟨S64x1, .i32⟩
  | 69 => ⟨S64x64, .f32⟩
  | 70 => ⟨S64x192, .f32⟩
  | 71 => ⟨S64x64, .f32⟩
  | 72 => ⟨S1x64, .f32⟩
  | 73 => ⟨S64x64, .f32⟩
  | 74 => ⟨S64x64, .f32⟩
  | 75 => ⟨S_, .f32⟩
  | 76 => ⟨S64x64, .f32⟩
  | 77 => ⟨S64x64, .f32⟩
  | 78 => ⟨S64x10, .f32⟩
  | 79 => ⟨S1x10, .f32⟩
  | 80 => ⟨S64x10, .f32⟩
  | 81 => ⟨S64x10, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_c_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call1_cst : Ref sig .tc := ⟨.hbm, 90, rfl⟩
abbrev main_call1_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_c_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_cst_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_19 : Ref sig .tc := ⟨.hbm, 118, rfl⟩
abbrev main_v80 : Ref sig .tc := ⟨.hbm, 119, rfl⟩
abbrev main_v81 : Ref sig .tc := ⟨.hbm, 120, rfl⟩
abbrev main_cst_20 : Ref sig .tc := ⟨.hbm, 121, rfl⟩
abbrev main_call2_v0 : Ref sig .tc := ⟨.hbm, 122, rfl⟩
abbrev main_call2_v1 : Ref sig .tc := ⟨.hbm, 123, rfl⟩
abbrev main_v82 : Ref sig .tc := ⟨.hbm, 124, rfl⟩
abbrev main_c_21 : Ref sig .tc := ⟨.hbm, 125, rfl⟩
abbrev main_v83 : Ref sig .tc := ⟨.hbm, 126, rfl⟩
abbrev main_v84 : Ref sig .tc := ⟨.hbm, 127, rfl⟩
abbrev main_c_22 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_23 : Ref sig .tc := ⟨.hbm, 134, rfl⟩
abbrev main_v90 : Ref sig .tc := ⟨.hbm, 135, rfl⟩
abbrev main_v91 : Ref sig .tc := ⟨.hbm, 136, rfl⟩
abbrev main_c_24 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_25 : Ref sig .tc := ⟨.hbm, 144, rfl⟩
abbrev main_v98 : Ref sig .tc := ⟨.hbm, 145, rfl⟩
abbrev main_v99 : Ref sig .tc := ⟨.hbm, 146, rfl⟩
abbrev main_c_26 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_27 : Ref sig .tc := ⟨.hbm, 156, rfl⟩
abbrev main_v108 : Ref sig .tc := ⟨.hbm, 157, rfl⟩
abbrev main_c_28 : Ref sig .tc := ⟨.hbm, 158, rfl⟩
abbrev main_v109 : Ref sig .tc := ⟨.hbm, 159, rfl⟩
abbrev main_v110 : Ref sig .tc := ⟨.hbm, 160, rfl⟩
abbrev main_c_29 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call3_cst : Ref sig .tc := ⟨.hbm, 170, rfl⟩
abbrev main_call3_v0 : Ref sig .tc := ⟨.hbm, 171, rfl⟩
abbrev main_v119 : Ref sig .tc := ⟨.hbm, 172, rfl⟩
abbrev main_cst_30 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_31 : Ref sig .tc := ⟨.hbm, 177, rfl⟩
abbrev main_v123 : Ref sig .tc := ⟨.hbm, 178, rfl⟩
abbrev main_cst_32 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_33 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_c_34 : Ref sig .tc := ⟨.hbm, 189, rfl⟩
abbrev main_v132 : Ref sig .tc := ⟨.hbm, 190, rfl⟩
abbrev main_v133 : Ref sig .tc := ⟨.hbm, 191, rfl⟩
abbrev main_c_35 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_call4_cst : Ref sig .tc := ⟨.hbm, 203, rfl⟩
abbrev main_call4_v0 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x64_S64x192_d1 : Shape.Concatenates [S64x128, S64x64] S64x192 1
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S100000x3_S3x64_S100000x64_1_0_0_1_n_n_wf : DotDims.WF S100000x3 S3x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  gather_S64x64_S64x1_S64x64_1_0_n_n_0_1_164_wf : GatherDims.WF S64x64 S64x1 S64x64 [1] [0] [] [0] [] 1 ![1, 64]
  dot_S64x192_S192x64_S64x64_1_0_0_1_n_n_wf : DotDims.WF S64x192 S192x64 S64x64 [1] [0] [0] [1] [] []
  dot_S64x64_S64x10_S64x10_1_0_0_1_n_n_wf : DotDims.WF S64x64 S64x10 S64x10 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S64x64_S64x1_S64x64_1_0_n_n_0_1_164 : GatherDims S64x64 S64x1 S64x64 where
  offsetDims := [1]
  collapsedSliceDims := [0]
  operandBatchingDims := []
  startIndicesBatchingDims := []
  startIndexMap := [0]
  indexVectorDim := 1
  sliceSizes := ![1, 64]
  wf := gather_S64x64_S64x1_S64x64_1_0_n_n_0_1_164_wf
def dot_S64x192_S192x64_S64x64_1_0_0_1_n_n : DotDims S64x192 S192x64 S64x64 where
  lhsContracting := [1]
  rhsContracting := [0]
  lhsNonContracting := [0]
  rhsNonContracting := [1]
  lhsBatch := []
  rhsBatch := []
  wf := dot_S64x192_S192x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.Classifier.lean ====
/-
  The classifier both programs end with: from the pooled node features `P` (64 graphs × 128 channels) and the
  per-graph moment rows `M` (64 × 64), `out = relu([P | M] · Wc1 + bc1) · Wc2 + bc2`.

  The reference computes it on the host: the two blocks joined along the channel axis, a `dot_general` with `Wc1`
  (192 × 64), the bias row added to every graph's row, a maximum with zero, a `dot_general` with `Wc2` (64 × 10) and the
  second bias row.  `head` is that composition as one function of the six arrays.  The kernel body computes the same on the
  whole blocks: it joins the same two blocks, multiplies on the matrix unit into an accumulator that starts at zero,
  recasts the bias vector as one row and repeats the row, and takes the maximum with a zero splat.

  Over the extended reals the two are one function (`payload_eq_head`):
  * a matrix product accumulated into zero is, entry by entry, the sum over the contracted axis of the products of the
    operands' entries, and so is the host's `dot_general` over the same dimension numbers;
  * a length-b vector recast as a 1 × b row and repeated over a rows reads, at (p, q), the vector's entry q — as does the
    vector placed on axis 1 of a 1 × b array and that array spread over a rows;
  * a zero splat is the scalar zero constant spread over the shape.
  No law of arithmetic beyond these readings is used, so nothing is asked of the entries: they may be infinite.
-/
import proofs.«157435_g2551210574454_retrytranche1_50_2_alg».proof.Proof.Gen.ReferenceIdeal
import proofs.«157435_g2551210574454_retrytranche1_50_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Classifier

open Idealize.ShloMosaic Idealize.ShloMosaic.ValueIdx

/-! ## The reference's last operations as one function -/

section Head
variable {F : FTy → Type} [FloatOps F]
open Cert.ReferenceIdeal Cert.ReferenceIdeal.Gen

/-- `relu([P | M] · w1 + b1) · w2 + b2`, spelt with the host's operations in the order the reference applies them. -/
abbrev head (P : FVec F S64x128 .f32) (M : FVec F S64x64 .f32) (w1 : FVec F S192x64 .f32) (b1 : FVec F S64 .f32)
    (w2 : FVec F S64x10 .f32) (b2 : FVec F S10 .f32) : FVec F S64x10 .f32 :=
  addf (Host.dotGeneral dot_S64x64_S64x10_S64x10_1_0_0_1_n_n none (maximumf (addf (Host.dotGeneral dot_S64x192_S192x64_S64x64_1_0_0_1_n_n none (concatenate S64x192 1 [⟨S64x128, P⟩, ⟨S64x64, M⟩] concatenates_S64x128_S64x64_S64x192_d1) w1) (broadcastInDim S64x64 ![0, 1] bcast_S1x64_S64x64_0_1 (broadcastInDim S1x64 ![1] bcast_S64_S1x64_1 b1))) (broadcastInDim S64x64 ![] bcast_S_S64x64 (constant S_ .f32 0x00000000#32))) w2) (broadcastInDim S64x10 ![0, 1] bcast_S1x10_S64x10_0_1 (broadcastInDim S1x10 ![1] bcast_S10_S1x10_1 b2))

end Head

/-! ## The three readings -/

/-- A matrix product accumulated into the zero splat is the host's product over the same dimension numbers: at every
    output entry both are the sum, over the contracted axis, of the products of the operands' entries. -/
theorem matmul_zero_eq_dot {sl sr so : Shape} (d : DotDims sl sr so) (l : FVec Ideal sl .f32) (r : FVec Ideal sr .f32) :
    matmul d none l r (constant so .f32 0x00000000#32) = Host.dotGeneral d none l r := by
  funext j
  exact (Ideal.matmul_constant_zero_apply d none l r j).trans (Ideal.dotGeneral_apply d none .single l r j).symm

/-- A length-`b` vector as a bias row over `a` rows, two spellings: recast as `1 × b` and repeated; or placed on axis 1 of
    a `1 × b` array which is then spread over the rows.  Both read the vector's entry `q` at `(p, q)`. -/
theorem row_bias_eq {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (h3 : (⟨1, ![b]⟩ : Shape).BroadcastsInDim ⟨2, ![1, b]⟩ ![1])
    (h4 : (⟨2, ![1, b]⟩ : Shape).BroadcastsInDim ⟨2, ![a, b]⟩ ![0, 1]) :
    broadcastTo ⟨2, ![a, b]⟩ (shapeCast ⟨2, ![1, b]⟩ x h1) h2
      = broadcastInDim ⟨2, ![a, b]⟩ ![0, 1] h4 (broadcastInDim ⟨2, ![1, b]⟩ ![1] h3 x) := by
  funext j
  obtain ⟨p, q, rfl⟩ : ∃ (p : Fin a) (q : Fin b), j = ix2 p q := ⟨j 0, j 1, eq_ix2 j⟩
  have hq : q.val < b := q.isLt
  refine ((broadcastTo_1b_ab_apply _ h2 p q).trans (shapeCast_a_1a_apply x h1 (0 : Fin 1) q)).trans ?_
  refine Eq.symm ((broadcastInDim_apply ![0, 1] h4 _ (ix2 p q) (ix2 (0 : Fin 1) q) fun ax => ?_).trans
    (broadcastInDim_apply ![1] h3 x (ix2 (0 : Fin 1) q) (ix1 q) fun ax => ?_))
  · match ax with
    | ⟨0, _⟩ => rfl
    | ⟨1, _⟩ =>
      show q.val = if b = 1 then 0 else q.val
      split
      · omega
      · rfl
  · match ax with
    | ⟨0, _⟩ =>
      show q.val = if b = 1 then 0 else q.val
      split
      · omega
      · rfl

/-! ## The kernel body's stored value is `head` -/

/-- What the kernel body stores — its arithmetic on the six whole blocks — is `head` of them, over the extended reals. -/
theorem payload_eq_head (P : FVec Ideal Cert.KernelIdeal.S64x128 .f32) (M : FVec Ideal Cert.KernelIdeal.S64x64 .f32)
    (w1 : FVec Ideal Cert.KernelIdeal.S192x64 .f32) (b1 : FVec Ideal Cert.KernelIdeal.S64 .f32)
    (w2 : FVec Ideal Cert.KernelIdeal.S64x10 .f32) (b2 : FVec Ideal Cert.KernelIdeal.S10 .f32) :
    Cert.KernelIdeal.Gen.k0_pay1 (F := Ideal) P M w1 b1 w2 b2 = head (F := Ideal) P M w1 b1 w2 b2 := by
  unfold Cert.KernelIdeal.Gen.k0_pay1
  dsimp only
  rw [shapeCast_self, shapeCast_self, matmul_zero_eq_dot, matmul_zero_eq_dot, row_bias_eq, row_bias_eq]
  rfl

end Cert.Classifier

end
-- ==== Proof.BodyValue.lean ====
/-
  What the kernel leaves in its result array.

  The kernel has no grid: its one step stages each of its six inputs whole — the pooled features and the moment rows as
  the host operations before the launch left them, and the four classifier parameters, which are arguments —, runs the
  body once, and writes the body's one stored block back over the whole 64 × 10 result.  So every input block is the
  input array itself (a block's coordinate is block index × block size + the coordinate inside the block, and the block
  index is 0 on every axis), the stored block is the body's arithmetic `k0_pay1` of those six arrays, and that one block
  covers the result array.  `run` is the generated frame run with the result array named accordingly.
-/
import proofs.«157435_g2551210574454_retrytranche1_50_2_alg».proof.Proof.Gen.KernelIdeal.Value

noncomputable section

namespace Cert.KernelIdeal.BodyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- Without a grid every window's block index is 0 on every axis (decided over the one point). -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0 :=
  (by decide +kernel : ∀ t : Fin grid0.N, _)

/-! ## Each input block is the whole array the region finds -/

theorem block0 (c : Dev nD) (t : Fin cfg0.N) : iblk m c 0 t = V m c main_v131 := by
  funext y
  show V m c main_v131 (((cfg0.win 0).blk t).view.emb y) = V m c main_v131 y
  obtain ⟨e0, e1, -⟩ := index_zero t
  refine congrArg (V m c main_v131) (funext fun a => Fin.ext ?_)
  match a with
  | ⟨0, _⟩ => show win0_0.index t (0 : Fin 2) * 64 + 1 * (y 0).val = (y 0).val; omega
  | ⟨1, _⟩ => show win0_0.index t (1 : Fin 2) * 128 + 1 * (y 1).val = (y 1).val; omega

theorem block1 (c : Dev nD) (t : Fin cfg0.N) : iblk m c 1 t = V m c main_v138 := by
  funext y
  show V m c main_v138 (((cfg0.win 1).blk t).view.emb y) = V m c main_v138 y
  obtain ⟨-, -, e0, e1, -⟩ := index_zero t
  refine congrArg (V m c main_v138) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem block2 (c : Dev nD) (t : Fin cfg0.N) : iblk m c 2 t = V m c main_arg9 := by
  funext y
  show V m c main_arg9 (((cfg0.win 2).blk t).view.emb y) = V m c main_arg9 y
  obtain ⟨-, -, -, -, e0, e1, -⟩ := index_zero t
  refine congrArg (V m c main_arg9) (funext fun a => Fin.ext ?_)
  match a with
  | ⟨0, _⟩ => show win0_2.index t (0 : Fin 2) * 192 + 1 * (y 0).val = (y 0).val; omega
  | ⟨1, _⟩ => show win0_2.index t (1 : Fin 2) * 64 + 1 * (y 1).val = (y 1).val; omega

theorem block3 (c : Dev nD) (t : Fin cfg0.N) : iblk m c 3 t = V m c main_arg10 := by
  funext y
  show V m c main_arg10 (((cfg0.win 3).blk t).view.emb y) = V m c main_arg10 y
  obtain ⟨-, -, -, -, -, -, e0, -⟩ := index_zero t
  refine congrArg (V m c main_arg10) (funext fun a => Fin.ext ?_)
  match a with
  | ⟨0, _⟩ => show win0_3.index t (0 : Fin 1) * 64 + 1 * (y 0).val = (y 0).val; omega

theorem block4 (c : Dev nD) (t : Fin cfg0.N) : iblk m c 4 t = V m c main_arg11 := by
  funext y
  show V m c main_arg11 (((cfg0.win 4).blk t).view.emb y) = V m c main_arg11 y
  obtain ⟨-, -, -, -, -, -, -, e0, e1, -⟩ := index_zero t
  refine congrArg (V m c main_arg11) (funext fun a => Fin.ext ?_)
  match a with
  | ⟨0, _⟩ => show win0_4.index t (0 : Fin 2) * 64 + 1 * (y 0).val = (y 0).val; omega
  | ⟨1, _⟩ => show win0_4.index t (1 : Fin 2) * 10 + 1 * (y 1).val = (y 1).val; omega

theorem block5 (c : Dev nD) (t : Fin cfg0.N) : iblk m c 5 t = V m c main_arg12 := by
  funext y
  show V m c main_arg12 (((cfg0.win 5).blk t).view.emb y) = V m c main_arg12 y
  obtain ⟨-, -, -, -, -, -, -, -, -, e0, -⟩ := index_zero t
  refine congrArg (V m c main_arg12) (funext fun a => Fin.ext ?_)
  match a with
  | ⟨0, _⟩ => show win0_5.index t (0 : Fin 1) * 10 + 1 * (y 0).val = (y 0).val; omega

/-! ## The one block written back, and the array it covers -/

/-- The body's stored value of the six arrays as the region finds them. -/
abbrev stored (c : Dev nD) : FVec F S64x10 .f32 :=
  k0_pay1 (V m c main_v131) (V m c main_v138) (V m c main_arg9) (V m c main_arg10) (V m c main_arg11) (V m c main_arg12)

/-- The step writes back the stored value, read through the result's (whole) block. -/
theorem flushed_eq (c : Dev nD) (t : Fin cfg0.N) :
    (dats m 0 c).flushed 6 t = ((cfg0.win 6).blk t).view.read (Elt F) (stored m c) := by
  rw [Value.flushed6]
  unfold out0_6
  rw [View.canon_unit_zero zeros2]
  simp only [View.ld_unit_zero (S := S64x128) zeros2, View.ld_unit_zero (S := S64x64) zeros2,
    View.ld_unit_zero (S := S192x64) zeros2, View.ld_unit_zero (S := S64) zeros1,
    View.ld_unit_zero (S := S64x10) zeros2, View.ld_unit_zero (S := S10) zeros1]
  rw [block0, block1, block2, block3, block4, block5]
  obtain ⟨-, -, -, -, -, -, -, -, -, -, e0, e1⟩ := index_zero t
  funext j
  show stored m c j = stored m c (((cfg0.win 6).blk t).view.emb j)
  refine congrArg (stored m c) (funext fun a => Fin.ext ?_)
  match a with
  | ⟨0, _⟩ => show (j 0).val = win0_6.index t (0 : Fin 2) * 64 + 1 * (j 0).val; omega
  | ⟨1, _⟩ => show (j 1).val = win0_6.index t (1 : Fin 2) * 10 + 1 * (j 1).val; omega

/-- An index of the result array is in the step's block iff each coordinate is in the block's range on its axis. -/
theorem mem_block (t : Fin cfg0.N) (i : S64x10.Idx) :
    i ∈ ((cfg0.win 6).blk t).view.set ↔ ∀ a : Fin 2, win0_6.index t a * S64x10.size a ≤ (i a).val ∧ (i a).val < win0_6.index t a * S64x10.size a + S64x10.size a := by
  show i ∈ ((View.whole main_v139).slice (win0_6.rect t)).set ↔ _
  rw [View.set_slice_whole, Rect.mem_set_unit]
  exact Iff.rfl

/-- The one block is the whole result array. -/
theorem covered (i : S64x10.Idx) : ∃ t : Fin cfg0.N, (cfg0.win 6).flush t = true ∧ i ∈ ((cfg0.win 6).blk t).view.set := by
  refine ⟨t0_0, flush0_6 t0_0, ?_⟩
  rw [mem_block]
  obtain ⟨-, -, -, -, -, -, -, -, -, -, e0, e1⟩ := index_zero t0_0
  have h0 : (i 0).val < 64 := (i 0).isLt
  have h1 : (i 1).val < 10 := (i 1).isLt
  intro a
  match a with
  | ⟨0, _⟩ => show win0_6.index t0_0 (0 : Fin 2) * 64 ≤ (i 0).val ∧ (i 0).val < win0_6.index t0_0 (0 : Fin 2) * 64 + 64; omega
  | ⟨1, _⟩ => show win0_6.index t0_0 (1 : Fin 2) * 10 ≤ (i 1).val ∧ (i 1).val < win0_6.index t0_0 (1 : Fin 2) * 10 + 10; omega

/-- The result array after the run: the body's stored value of the pooled features and moment rows as the host
    operations left them and of the four parameter arguments. -/
theorem final (c : Dev nD) : (dats m 0 c).arrAt 6 cfg0.N
    = k0_pay1 (V m c main_v131) (V m c main_v138) (m ((c : Thread nD τ).loc main_arg9)) (m ((c : Thread nD τ).loc main_arg10))
        (m ((c : Thread nD τ).loc main_arg11)) (m ((c : Thread nD τ).loc main_arg12)) := by
  rw [← V_main_arg9 m c, ← V_main_arg10 m c, ← V_main_arg11 m c, ← V_main_arg12 m c]
  exact (dats m 0 c).arrAt_eq_of_cover 6 (stored m c) (fun t _ => flushed_eq m c t) covered

/-- The generated frame run, its result array named. -/
theorem run : θ_run defs (onTc (τ := τ) (main (F := F))) ⟨m, fun _ => 0, ρ⟩ fun r => ∀ c : Dev nD,
      r.2.mem ((c : Thread nD τ).loc main_v139)
        = k0_pay1 (V m c main_v131) (V m c main_v138) (m ((c : Thread nD τ).loc main_arg9)) (m ((c : Thread nD τ).loc main_arg10))
            (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.BodyValue

end
-- ==== Proof.Bridge.lean ====
/-
  The two programs agree on everything before the classifier.

  Both programs compute the pooled node features and the moment rows by the same host operations of the same arguments:
  two rounds of graph convolution (self-loops appended to the edge list; the degree of each node counted by a scatter-add
  of ones; the symmetric normalisation 1/sqrt(deg) where the degree is positive; the messages `h[src] · norm` gathered,
  scaled and scatter-added at `dst`; bias; relu), the per-graph sums of the node features and the per-graph node counts
  by scatter-adds over the batch assignment, the quotient by `max(count, 1)`, and the moment rows gathered at the graph
  ids.  In the kernel's program these operations run before the launch and leave the two arrays the launch stages; in the
  reference they are the first operations of one longer line.  Reading the kernel's line of operations back, buffer by
  buffer, gives for each of the two arrays the same composition of operations of the arguments that stands inside the
  reference's result term — operation for operation, so the two are equal by unfolding alone: no property of a gather,
  a scatter or a quotient is used, and nothing is asked of the arguments' values.  The statement is about the shape of
  the two compositions only, so it is made for every reading of the float operations, not just the extended reals.

  Hence the reference's result, from arguments that agree with the kernel's, is the classifier `head` of the two arrays
  as the kernel's launch finds them and of the kernel's four parameter arguments (`reference_result`).
-/
import proofs.«157435_g2551210574454_retrytranche1_50_2_alg».proof.Proof.RefRun
import proofs.«157435_g2551210574454_retrytranche1_50_2_alg».proof.Proof.Classifier
import proofs.«157435_g2551210574454_retrytranche1_50_2_alg».proof.Proof.Gen.KernelIdeal.Frame
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F]

/-- `head` of equal pooled features and equal moment rows. -/
theorem head_congr {P P' : FVec F Cert.ReferenceIdeal.S64x128 .f32} {M M' : FVec F Cert.ReferenceIdeal.S64x64 .f32}
    (w1 : FVec F Cert.ReferenceIdeal.S192x64 .f32) (b1 : FVec F Cert.ReferenceIdeal.S64 .f32) (w2 : FVec F Cert.ReferenceIdeal.S64x10 .f32) (b2 : FVec F Cert.ReferenceIdeal.S10 .f32)
    (hP : P = P') (hM : M = M') :
    Cert.Classifier.head P M w1 b1 w2 b2 = Cert.Classifier.head P' M' w1 b1 w2 b2 := by
  subst hP hM; rfl

set_option maxRecDepth 16384 in
set_option maxHeartbeats 80000000 in
/-- The reference's result term, at arguments that agree with the kernel's, is the classifier of the pooled features and
    moment rows the kernel's launch finds and of the kernel's parameter arguments. -/
theorem reference_result (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RunP.res_main_v148 (F := F) m' c
      = Cert.Classifier.head (F := F) (Cert.KernelIdeal.Gen.V m c Cert.KernelIdeal.main_v131) (Cert.KernelIdeal.Gen.V m c Cert.KernelIdeal.main_v138)
          (m ((c.tc : Thread Cert.KernelIdeal.nD Cert.KernelIdeal.τ).loc Cert.KernelIdeal.main_arg9)) (m ((c.tc : Thread Cert.KernelIdeal.nD Cert.KernelIdeal.τ).loc Cert.KernelIdeal.main_arg10))
          (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨h0, h1, h2, h3, h4, h5, h6, h7, h8, h9, h10, h11, h12⟩ := hagree
  unfold Cert.ReferenceIdeal.RunP.res_main_v148
  rw [h0, h1, h2, h3, h4, h5, h6, h7, h8, h9, h10, h11, h12]
  refine head_congr _ _ _ _ ?_ ?_
  · symm
    dsimp only [Cert.KernelIdeal.Gen.V]
    simp only [Cert.KernelIdeal.Gen.hostOps0, Cert.KernelIdeal.Gen.hostOps0_1, Cert.KernelIdeal.Gen.hostOps0_2, Cert.KernelIdeal.Gen.hostOps0_3, Cert.KernelIdeal.Gen.hostOps0_4,
      Cert.KernelIdeal.Gen.hostOps0_5, Cert.KernelIdeal.Gen.hostOps0_6, Cert.KernelIdeal.Gen.hostOps0_7, Cert.KernelIdeal.Gen.hostOps0_8,
      List.flatten_cons, List.flatten_nil, List.append_nil, List.cons_append, List.nil_append]
    after_results_simp
    rfl
  · symm
    dsimp only [Cert.KernelIdeal.Gen.V]
    simp only [Cert.KernelIdeal.Gen.hostOps0, Cert.KernelIdeal.Gen.hostOps0_1, Cert.KernelIdeal.Gen.hostOps0_2, Cert.KernelIdeal.Gen.hostOps0_3, Cert.KernelIdeal.Gen.hostOps0_4,
      Cert.KernelIdeal.Gen.hostOps0_5, Cert.KernelIdeal.Gen.hostOps0_6, Cert.KernelIdeal.Gen.hostOps0_7, Cert.KernelIdeal.Gen.hostOps0_8,
      List.flatten_cons, List.flatten_nil, List.append_nil, List.cons_append, List.nil_append]
    after_results_simp
    rfl

end Cert.Bridge

end
-- ==== Proof.lean ====
/-
  The certificate: a two-layer graph convolution network with mean pooling and a two-layer classifier, whose kernel
  program runs the classifier (`relu([pooled | moments] · Wc1 + bc1) · Wc2 + bc2`) as one launch on the matrix unit and
  everything before it on the host, against a reference that runs all of it on the host.

  * The three frames: the two kernel programs' are the generated frame certificates; the reference's is its run with the
    result dropped.
  * `preserves`: the idealization rewrote nothing, so there is nothing to state.
  * `algebraic`: the kernel's result array is the body's arithmetic of the pooled features and moment rows its launch finds
    and of its four parameter arguments (Proof/BodyValue.lean); over the extended reals that arithmetic is the classifier
    `head` as the host spells it (Proof/Classifier.lean: a product accumulated into zero is the host's product, the two
    spellings of a bias row agree, a zero splat is a spread zero); and the reference's result term is `head` of the very
    same two arrays and parameters, because both programs reach the two arrays by the same operations of the same
    arguments (Proof/Bridge.lean).  No law of arithmetic is needed, so the precondition (finite inputs) is never opened.
-/
import proofs.«157435_g2551210574454_retrytranche1_50_2_alg».proof.Defs
import proofs.«157435_g2551210574454_retrytranche1_50_2_alg».proof.Proof.Gen.Kernel
import proofs.«157435_g2551210574454_retrytranche1_50_2_alg».proof.Proof.Gen.Kernel.Skeleton
import proofs.«157435_g2551210574454_retrytranche1_50_2_alg».proof.Proof.Gen.Kernel.Launch
import proofs.«157435_g2551210574454_retrytranche1_50_2_alg».proof.Proof.Gen.Kernel.Points
import proofs.«157435_g2551210574454_retrytranche1_50_2_alg».proof.Proof.Gen.Kernel.Frame
import proofs.«157435_g2551210574454_retrytranche1_50_2_alg».proof.Proof.Gen.KernelIdeal
import proofs.«157435_g2551210574454_retrytranche1_50_2_alg».proof.Proof.Gen.KernelIdeal.Skeleton
import proofs.«157435_g2551210574454_retrytranche1_50_2_alg».proof.Proof.Gen.KernelIdeal.Launch
import proofs.«157435_g2551210574454_retrytranche1_50_2_alg».proof.Proof.Gen.KernelIdeal.Points
import proofs.«157435_g2551210574454_retrytranche1_50_2_alg».proof.Proof.Gen.KernelIdeal.Frame
import proofs.«157435_g2551210574454_retrytranche1_50_2_alg».proof.Proof.Gen.ReferenceIdeal
import proofs.«157435_g2551210574454_retrytranche1_50_2_alg».proof.Proof.Gen.Pre_finite_inputs
import proofs.«157435_g2551210574454_retrytranche1_50_2_alg».proof.Proof.Gen.KernelIdeal.Value
import proofs.«157435_g2551210574454_retrytranche1_50_2_alg».proof.Proof.RefRun
import proofs.«157435_g2551210574454_retrytranche1_50_2_alg».proof.Proof.Classifier
import proofs.«157435_g2551210574454_retrytranche1_50_2_alg».proof.Proof.BodyValue
import proofs.«157435_g2551210574454_retrytranche1_50_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both results are the classifier `head` of the pooled features and moment rows the kernel's launch finds. -/
theorem algebraic : Cert.algebraic_KernelIdeal_ReferenceIdeal := by
  intro m ρ m' ρ' _ hagree
  refine ⟨_, Cert.KernelIdeal.BodyValue.run (F := Ideal) m ρ, ?_⟩
  refine (θ_run Cert.ReferenceIdeal.defs _ _).mono (fun _ h c => ⟨(h c).1.trans ?_, (h c).2⟩)
    (Cert.ReferenceIdeal.RunP.run (F := Ideal) m' ρ')
  exact (Cert.Bridge.reference_result (F := Ideal) m m' c (hagree c)).trans (Cert.Classifier.payload_eq_head _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
